-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1000000 : Shape := ⟨1, ![1000000]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S50000x64 .f32) (main_arg1 : IVec S1000000 32) (main_arg2 : IVec S1000000 32) (main_arg3 : FVec F S64x64 .f32) (main_arg4 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S50000x64 : Shape := ⟨2, ![50000, 64]⟩
abbrev S1000000 : Shape := ⟨1, ![1000000]⟩
abbrev S64x64 : Shape := ⟨2, ![64, 64]⟩
abbrev S_ : Shape := ⟨0, ![]⟩
abbrev S1000000x1 : Shape := ⟨2, ![1000000, 1]⟩
abbrev S1000000x64 : Shape := ⟨2, ![1000000, 64]⟩
abbrev S5000x64 : Shape := ⟨2, ![5000, 64]⟩

abbrev nBuf : Space → Nat
  | .hbm => 21
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64x64, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x64, .f32⟩
  | .hbm, ⟨14, _⟩ => ⟨S_, .f32⟩
  | .hbm, ⟨15, _⟩ => ⟨S50000x64, .f32⟩
  | .hbm, ⟨16, _⟩ => ⟨S1000000x1, .i32⟩
  | .hbm, ⟨17, _⟩ => ⟨S50000x64, .f32⟩
  | .hbm, ⟨18, _⟩ => ⟨S64x64, .f32⟩
  | .hbm, ⟨19, _⟩ => ⟨S64x64, .f32⟩
  | .hbm, ⟨20, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S5000x64, .f32⟩
  | .local _ .vmem, ⟨7, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  transposes_S64x64_S64x64_1_0 : S64x64.Transposes [1, 0] S64x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S1000000 : Shape := ⟨1, ![1000000]⟩
abbrev S64x64 : Shape := ⟨2, ![64, 64]⟩
abbrev S_ : Shape := ⟨0, ![]⟩
abbrev S1000000x1 : Shape := ⟨2, ![1000000, 1]⟩
abbrev S1000000x64 : Shape := ⟨2, ![1000000, 64]⟩

abbrev nBuf : Space → Nat
  | .hbm => 24
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64x64, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S1000000x64, .f32⟩
  | .hbm, ⟨14, _⟩ => ⟨S_, .f32⟩
  | .hbm, ⟨15, _⟩ => ⟨S50000x64, .f32⟩
  | .hbm, ⟨16, _⟩ => ⟨S1000000x1, .i32⟩
  | .hbm, ⟨17, _⟩ => ⟨S50000x64, .f32⟩
  | .hbm, ⟨18, _⟩ => ⟨S50000x64, .f32⟩
  | .hbm, ⟨19, _⟩ => ⟨S50000x64, .f32⟩
  | .hbm, ⟨20, _⟩ => ⟨S50000x64, .f32⟩
  | .hbm, ⟨21, _⟩ => ⟨S_, .f32⟩
  | .hbm, ⟨22, _⟩ => ⟨S50000x64, .f32⟩
  | .hbm, ⟨23, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  dot_S50000x64_S64x64_S50000x64_1_1_0_0_n_n_wf : DotDims.WF S50000x64 S64x64 S50000x64 [1] [1] [0] [0] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf

class Facts : Prop extends Facts₀ where

variable [Facts]
-- ==== Proof.Layer.lean ====
/-
  One graph-convolution layer as a function of its arrays, on the extended reals.

  Node `n` carries 64 input features `x[n, ·]` and 64 aggregated features `agg[n, ·]` (the sum of the
  features of the nodes that send it a message); `U` and `V` are 64 × 64 weight matrices, stored output-major
  (`U[o, k]` weighs input feature `k` in output feature `o`). Output feature `o` of node `n` is the positive
  part of

      Σ_k x[n, k] · U[o, k]  +  Σ_k agg[n, k] · V[o, k].

  The two programs of this certificate differ only in how they arrange these two sums — one multiplies by the
  transposed weights `Uᵀ[k, o]`, a block of 5000 nodes at a time; the other contracts `x` with `U` along the
  second axis of both, all nodes at once. Neither arrangement changes a term of a sum, so the two are this one
  function, with no condition on the entries: nothing is distributed, cancelled, or moved across a sum.
-/
import Idealize.ShloMosaic.PureOps.Ideal
import Idealize.ShloMosaic.Lib.ValueIdx

noncomputable section

namespace Cert.GcnLayer

open Idealize.ShloMosaic Idealize.ShloMosaic.ValueIdx

/-- Per-node features: 50000 nodes, 64 features each. -/
abbrev Nodes : Shape := ⟨2, ![50000, 64]⟩
/-- A weight matrix: 64 output features by 64 input features. -/
abbrev Weights : Shape := ⟨2, ![64, 64]⟩

/-- Output feature `o` of node `n`: the positive part of the two weighted sums. -/
def layerAt (x agg : Nodes.Idx → EReal) (U V : Weights.Idx → EReal) (n : Fin 50000) (o : Fin 64) : EReal :=
  max ((∑ k : Fin 64, x (ix2 n k) * U (ix2 o k)) + ∑ k : Fin 64, agg (ix2 n k) * V (ix2 o k)) 0

/-- The layer's output array. -/
def layer (x agg : Nodes.Idx → EReal) (U V : Weights.Idx → EReal) : Nodes.Idx → EReal :=
  fun i => layerAt x agg U V (i 0) (i 1)

/-- The output array read at node `n`, feature `o`. -/
theorem layer_ix2 (x agg : Nodes.Idx → EReal) (U V : Weights.Idx → EReal) (n : Fin 50000) (o : Fin 64) :
    layer x agg U V (ix2 n o) = layerAt x agg U V n o := rfl

end Cert.GcnLayer

end
-- ==== Proof.RefLayer.lean ====
/-
  The reference program computes the layer.

  Its last stage is `max(· , 0)` of the sum of two contractions, each along the second axis of both operands:
  at node `n`, feature `o` the first is Σ_k x[n, k] · U[o, k] and the second Σ_k agg[n, k] · V[o, k], where
  `agg` is what the program's gather and scatter-add stages leave (kept whole here: the kernel's program forms
  the same array by the same stages). Read index by index this is the layer's defining formula, term for term.
-/
import proofs.«133716_j4303557230928_2_alg».proof.Proof.Gen.ReferenceIdeal.Read
import proofs.«133716_j4303557230928_2_alg».proof.Proof.Layer

noncomputable section

namespace Cert.ReferenceIdeal.RefLayer

open Cert.ReferenceIdeal Cert.ReferenceIdeal.Gen Cert.ReferenceIdeal.Read
open Idealize.ShloMosaic Idealize.ShloMosaic.ValueIdx Cert.GcnLayer

/-- The left operand of either contraction is read at (node, k). -/
theorem left_at (i : S50000x64.Idx) (k : Fin 64) : lidx_main_v10 i k = ix2 (i 0 : Fin 50000) k :=
  funext fun a => Fin.ext (by match a with | ⟨0, _⟩ => rfl | ⟨1, _⟩ => rfl)

/-- The right operand of either contraction is read at (output feature, k): the weights are stored output-major. -/
theorem right_at (i : S50000x64.Idx) (k : Fin 64) : ridx_main_v10 i k = ix2 (i 1 : Fin 64) k :=
  funext fun a => Fin.ext (by match a with | ⟨0, _⟩ => rfl | ⟨1, _⟩ => rfl)

/-- The same two readings for the second contraction. -/
theorem left_at' (i : S50000x64.Idx) (k : Fin 64) : lidx_main_v11 i k = ix2 (i 0 : Fin 50000) k :=
  funext fun a => Fin.ext (by match a with | ⟨0, _⟩ => rfl | ⟨1, _⟩ => rfl)

theorem right_at' (i : S50000x64.Idx) (k : Fin 64) : ridx_main_v11 i k = ix2 (i 1 : Fin 64) k :=
  funext fun a => Fin.ext (by match a with | ⟨0, _⟩ => rfl | ⟨1, _⟩ => rfl)

/-- The reference's result is the layer of its arguments, with `agg` the array its scatter-add stage leaves. -/
theorem result_is_layer (x : (⟨S50000x64, .f32⟩ : BufTy).Contents (Elt Ideal))
    (src dst : (⟨S1000000, .i32⟩ : BufTy).Contents (Elt Ideal))
    (U V : (⟨S64x64, .f32⟩ : BufTy).Contents (Elt Ideal)) :
    val_main_v13 (F := Ideal) x src dst U V = layer x (val_main_v9 (F := Ideal) x src dst) U V := by
  funext i
  rw [val_main_v13_apply, val_main_v12_apply, val_main_v10_apply, val_main_v11_apply, val_main_call0_v0_apply,
    val_main_call0_cst_apply]
  simp only [left_at, right_at, left_at', right_at', Ideal.maximumf_def, Ideal.addf_def, Ideal.ofBits_def,
    Ideal.ofBits_zero_f32]
  rfl

end Cert.ReferenceIdeal.RefLayer

end
-- ==== Proof.Body.lean ====
/-
  What the kernel's body stores for one block of 5000 nodes, index by index.

  The body loads a block `xb` of node features and the matching block `ab` of aggregated features (5000 × 64
  each) and the two transposed weight matrices `ut`, `vt` (64 × 64, input-major: `ut[k, o]`), narrows all four
  (a change of float format, which on the extended reals changes nothing), forms the two rows-by-columns products
  into zero accumulators, adds them and takes the maximum with zero. So at row `p`, column `q` it stores

      max( Σ_k xb[p, k] · ut[k, q]  +  Σ_k ab[p, k] · vt[k, q] ,  0 ).
-/
import proofs.«133716_j4303557230928_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The left factor's row is the output's row. -/
theorem left_row (i : S5000x64.Idx) (r : dot_S5000x64_S64x64_S5000x64_1_0_0_1_n_n.contr.Idx) :
    (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The right factor's column is the output's column. -/
theorem right_col (i : S5000x64.Idx) (r : dot_S5000x64_S64x64_S5000x64_1_0_0_1_n_n.contr.Idx) :
    (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A rows-by-columns product into a zero accumulator, at row `p` and column `q`: the sum over the shared axis of
    the left factor's row `p` times the right factor's column `q`. -/
theorem product_at (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  show FloatOps.matmul dot_S5000x64_S64x64_S5000x64_1_0_0_1_n_n none a b (constant (F := Ideal) S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun c => Fin.ext (by
      match c with
      | ⟨0, _⟩ => exact left_row _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun c => Fin.ext (by
      match c with
      | ⟨0, _⟩ => exact (dot_S5000x64_S64x64_S5000x64_1_0_0_1_n_n.rhsIdx_val_of_single rfl _ _).trans hk
      | ⟨1, _⟩ => exact right_col _ _)
  rw [el, er]

/-- What the body stores at row `p`, column `q` of its output block. -/
theorem stored_at (xb ab : Vec Ideal S5000x64 .f32) (ut vt : Vec Ideal S64x64 .f32) (p : Fin 5000) (q : Fin 64) :
    k0_pay1 (F := Ideal) xb ab ut vt (ix2 p q)
      = max ((∑ k : Fin 64, xb (ix2 p k) * ut (ix2 k q)) + ∑ k : Fin 64, ab (ix2 p k) * vt (ix2 k q)) 0 := by
  unfold k0_pay1
  rw [maximumf_apply, addf_apply, broadcast_apply, product_at, product_at]
  simp only [shapeCast_self, truncf_apply]
  show max _ (Ideal.ofBits .f32 0x00000000#32) = _
  rw [Ideal.ofBits_zero_f32]

end Cert.KernelIdeal.Body

end
-- ==== Proof.Head.lean ====
/-
  What the launch finds in the arrays the host stages prepare.

  Before the launch the program forms three arrays from its arguments: the aggregated features `agg` — the
  source indices wrapped once if negative, the rows of `x` they name gathered, and those rows added into a zero
  array at the rows the destination indices name — and the two weight matrices transposed. The aggregation is
  kept as one term (`agg`): the reference program forms the same array by the same stages, so its contents are
  never needed. A transposed matrix read at `(k, o)` is the matrix at `(o, k)`.
-/
import proofs.«133716_j4303557230928_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Head

open Cert.KernelIdeal Cert.KernelIdeal.Gen Idealize.ShloMosaic Idealize.ShloMosaic.TcCoe Idealize.SL.Sem
open Idealize.ShloMosaic.StableHlo Idealize.ShloMosaic.ValueIdx

/-- The aggregated features: row `d` is the sum of the rows `x[s]` over the edges `s → d`, as the host stages
    compute it (wrap of negative source indices, gather, scatter-add into zeros). -/
def agg (x : (⟨S50000x64, .f32⟩ : BufTy).Contents (Elt Ideal)) (src dst : (⟨S1000000, .i32⟩ : BufTy).Contents (Elt Ideal)) :
    (⟨S50000x64, .f32⟩ : BufTy).Contents (Elt Ideal) :=
  Host.scatterAdd scatter_S50000x64_S1000000x1_S1000000x64_1_0_0_1
    (broadcastInDim S50000x64 ![] bcast_S_S50000x64 (constant (F := Ideal) S_ .f32 0x00000000#32))
    (broadcastInDim S1000000x1 ![0] bcast_S1000000_S1000000x1_0 dst)
    (Host.gather gather_S50000x64_S1000000x1_S1000000x64_1_0_n_n_0_1_164 x
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 50000#32))) src)))

/-- The aggregated features, spelt as the host stages that form them. -/
theorem agg_eq (x : (⟨S50000x64, .f32⟩ : BufTy).Contents (Elt Ideal)) (src dst : (⟨S1000000, .i32⟩ : BufTy).Contents (Elt Ideal)) :
    agg x src dst = Host.scatterAdd scatter_S50000x64_S1000000x1_S1000000x64_1_0_0_1
      (broadcastInDim S50000x64 ![] bcast_S_S50000x64 (constant (F := Ideal) S_ .f32 0x00000000#32))
      (broadcastInDim S1000000x1 ![0] bcast_S1000000_S1000000x1_0 dst)
      (Host.gather gather_S50000x64_S1000000x1_S1000000x64_1_0_n_n_0_1_164 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 50000#32))) src))) := rfl

variable (m : (ℓ : Loc nD τ sig) → Buf (Elt Ideal) ℓ)

/-- The second operand of the launch is the aggregated features of the arguments. -/
theorem found_agg (c : Dev nD) :
    (V m c main_call0_v9 : S50000x64.Idx → EReal)
      = agg (m ((c : Thread nD τ).loc main_arg0)) (m ((c : Thread nD τ).loc main_arg1)) (m ((c : Thread nD τ).loc main_arg2)) := by
  rw [agg_eq]
  dsimp only [V, hostOps0]
  after_results
  rfl

/-- The third operand of the launch is the first weight matrix transposed. -/
theorem found_ut (c : Dev nD) :
    (V m c main_call0_v10 : S64x64.Idx → EReal)
      = transpose S64x64 [1, 0] (m ((c : Thread nD τ).loc main_arg3)) transposes_S64x64_S64x64_1_0 := by
  dsimp only [V, hostOps0]
  after_results
  rfl

/-- The fourth operand of the launch is the second weight matrix transposed. -/
theorem found_vt (c : Dev nD) :
    (V m c main_call0_v11 : S64x64.Idx → EReal)
      = transpose S64x64 [1, 0] (m ((c : Thread nD τ).loc main_arg4)) transposes_S64x64_S64x64_1_0 := by
  dsimp only [V, hostOps0]
  after_results
  rfl

/-- A transposed weight matrix at (input feature `k`, output feature `o`) is the matrix at `(o, k)`. -/
theorem transposed_at (W : S64x64.Idx → EReal) (k o : Fin 64) :
    transpose S64x64 [1, 0] W transposes_S64x64_S64x64_1_0 (ix2 k o) = W (ix2 o k) :=
  transpose_ix2_apply W transposes_S64x64_S64x64_1_0 k o

-- From here on the aggregation is one closed term: every later step uses it only through `agg_eq` and
-- `found_agg`, never through its contents.
attribute [irreducible] agg

end Cert.KernelIdeal.Head

end
-- ==== Proof.BlockLayer.lean ====
/-
  One block of the launch computes the layer on its rows.

  Suppose the body is given rows `base + p` (p < 5000) of two node arrays `X` and `A`, and two 64 × 64 matrices
  that are the weights `U`, `W` transposed. What it stores at row `p`, column `q` is
  max(Σ_k X[base + p, k] · U[q, k] + Σ_k A[base + p, k] · W[q, k], 0): the body's rows-by-columns sums with each
  transposed weight `[k, q]` read as the weight `[q, k]`. That is the layer's output at node `base + p`,
  feature `q`, term for term.
-/
import proofs.«133716_j4303557230928_2_alg».proof.Proof.Layer
import proofs.«133716_j4303557230928_2_alg».proof.Proof.Body

noncomputable section

namespace Cert.KernelIdeal.BlockLayer

open Cert.KernelIdeal Cert.KernelIdeal.Gen Idealize.ShloMosaic Idealize.ShloMosaic.ValueIdx Cert.GcnLayer

/-- If a block's loads are rows `base + p` of `X` and of `A` and the two weight matrices transposed, then what
    the body stores at row `p`, column `q` is the layer's output at node `base + p`, feature `q`. -/
theorem block_is_layer (X A : Nodes.Idx → EReal) (U W : Weights.Idx → EReal)
    (xb ab : Vec Ideal S5000x64 .f32) (ut vt : Vec Ideal S64x64 .f32) (base : Nat)
    (hx : ∀ (p : Fin 5000) (k : Fin 64) (n : Fin 50000), n.val = base + p.val → xb (ix2 p k) = X (ix2 n k))
    (ha : ∀ (p : Fin 5000) (k : Fin 64) (n : Fin 50000), n.val = base + p.val → ab (ix2 p k) = A (ix2 n k))
    (hu : ∀ k o : Fin 64, ut (ix2 k o) = U (ix2 o k))
    (hv : ∀ k o : Fin 64, vt (ix2 k o) = W (ix2 o k))
    (y : S5000x64.Idx) (i : Nodes.Idx) (h0 : (i 0).val = base + (y 0).val) (h1 : (i 1).val = (y 1).val) :
    k0_pay1 (F := Ideal) xb ab ut vt y = layer X A U W i := by
  obtain ⟨p, q, rfl⟩ : ∃ (p : Fin 5000) (q : Fin 64), y = ix2 p q := ⟨y 0, y 1, eq_ix2 y⟩
  obtain ⟨n, o, rfl⟩ : ∃ (n : Fin 50000) (o : Fin 64), i = ix2 n o := ⟨i 0, i 1, eq_ix2 i⟩
  have hn : n.val = base + p.val := h0
  have ho : o = q := Fin.ext h1
  rw [ho, Body.stored_at, layer_ix2]
  unfold layerAt
  refine congrArg (max · 0) (congrArg₂ (· + ·) ?_ ?_)
  · exact Finset.sum_congr rfl fun k _ => by rw [hx p k n hn, hu k q]
  · exact Finset.sum_congr rfl fun k _ => by rw [ha p k n hn, hv k q]

end Cert.KernelIdeal.BlockLayer

end
-- ==== Proof.Rows.lean ====
/-
  Each window's block, at a point of the launch, as rows of the array it is cut from.

  The launch has ten points. At point `t` the node-feature window and the aggregated-feature window hold rows
  `5000·t … 5000·t + 4999` (all 64 columns) of their arrays, and each weight window holds its whole 64 × 64
  array, which the host stages made the transpose of a weight argument. So row `p` of a node block is node
  `5000·t + p`, and a weight block at `(k, o)` is the weight argument at `(o, k)`.

  The array behind a window is named once, as a whole array (`block_of`, `array0` … `array3`), before anything is
  read at an index: the aggregated features are the result of a scatter-add over a million edges, and the lemmas
  below need only which rows of it a block holds, never its entries.
-/
import proofs.«133716_j4303557230928_2_alg».proof.Proof.Gen.KernelIdeal.Frame
import proofs.«133716_j4303557230928_2_alg».proof.Proof.Head

noncomputable section

namespace Cert.KernelIdeal.Rows

open Cert.KernelIdeal Cert.KernelIdeal.Gen Idealize.ShloMosaic Idealize.ShloMosaic.TcCoe Idealize.SL.Sem
open Idealize.ShloMosaic.ValueIdx Cert.KernelIdeal.Head

variable (m : (ℓ : Loc nD τ sig) → Buf (Elt Ideal) ℓ)

/-! ## The arrays behind the four input windows -/

/-- A window's block at a point is its array, whatever it is called, read through the block's rectangle. -/
theorem block_of (c : Dev nD) (w : Fin cfg0.W) (t : Fin cfg0.N)
    (A : Buf (Elt Ideal) ((c : Thread nD τ).loc (Pipeline.arrRef spec0 w))) (hA : V m c (Pipeline.arrRef spec0 w) = A) :
    iblk m c w t = ((cfg0.win w).blk t).view.read (Elt Ideal) A := by
  unfold iblk
  rw [hA]

/-- Window 0 is cut from the node features. -/
theorem array0 (c : Dev nD) : V m c (Pipeline.arrRef spec0 0) = m ((c : Thread nD τ).loc main_arg0) :=
  V_main_arg0 m c

/-- Window 1 is cut from the aggregated features. -/
theorem array1 (c : Dev nD) : (V m c (Pipeline.arrRef spec0 1) : S50000x64.Idx → EReal)
    = agg (m ((c : Thread nD τ).loc main_arg0)) (m ((c : Thread nD τ).loc main_arg1)) (m ((c : Thread nD τ).loc main_arg2)) :=
  found_agg m c

/-- Window 2 is the first weight matrix transposed. -/
theorem array2 (c : Dev nD) : (V m c (Pipeline.arrRef spec0 2) : S64x64.Idx → EReal)
    = transpose S64x64 [1, 0] (m ((c : Thread nD τ).loc main_arg3)) transposes_S64x64_S64x64_1_0 :=
  found_ut m c

/-- Window 3 is the second weight matrix transposed. -/
theorem array3 (c : Dev nD) : (V m c (Pipeline.arrRef spec0 3) : S64x64.Idx → EReal)
    = transpose S64x64 [1, 0] (m ((c : Thread nD τ).loc main_arg4)) transposes_S64x64_S64x64_1_0 :=
  found_vt m c

/-! ## Which entries of its array a block holds -/

/-- The printed index maps, decided over the ten points: the three row-tiled windows sit at block row `t`, column
    block 0; the two weight windows at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0)

/-- Row `p` of window 0's block at point `t` is row `5000·t + p` of the array `X` it is cut from. -/
theorem x_rows (c : Dev nD) (t : Fin cfg0.N) (X : S50000x64.Idx → EReal)
    (hX : iblk m c 0 t = ((cfg0.win 0).blk t).view.read (Elt Ideal) X)
    (p : Fin 5000) (k : Fin 64) (n : Fin 50000) (hn : n.val = 5000 * t.val + p.val) :
    (iblk m c 0 t : Vec Ideal S5000x64 .f32) (ix2 p k) = X (ix2 n k) := by
  obtain ⟨e0, e1, -⟩ := block_index t
  rw [hX, View.read_apply]
  refine congrArg X (funext fun a => Fin.ext ?_)
  match a with
  | ⟨0, _⟩ => show win0_0.index t (0 : Fin 2) * 5000 + 1 * p.val = n.val; omega
  | ⟨1, _⟩ => show win0_0.index t (1 : Fin 2) * 64 + 1 * k.val = k.val; omega

/-- Row `p` of window 1's block at point `t` is row `5000·t + p` of the array `A` it is cut from. -/
theorem agg_rows (c : Dev nD) (t : Fin cfg0.N) (A : S50000x64.Idx → EReal)
    (hA : iblk m c 1 t = ((cfg0.win 1).blk t).view.read (Elt Ideal) A)
    (p : Fin 5000) (k : Fin 64) (n : Fin 50000) (hn : n.val = 5000 * t.val + p.val) :
    (iblk m c 1 t : Vec Ideal S5000x64 .f32) (ix2 p k) = A (ix2 n k) := by
  obtain ⟨-, -, e0, e1, -⟩ := block_index t
  rw [hA, View.read_apply]
  refine congrArg A (funext fun a => Fin.ext ?_)
  match a with
  | ⟨0, _⟩ => show win0_1.index t (0 : Fin 2) * 5000 + 1 * p.val = n.val; omega
  | ⟨1, _⟩ => show win0_1.index t (1 : Fin 2) * 64 + 1 * k.val = k.val; omega

/-- Window 2's one block is the whole of its array; when that is a weight matrix `W` transposed, the block at
    (input feature `k`, output feature `o`) is `W[o, k]`. -/
theorem u_block (c : Dev nD) (t : Fin cfg0.N) (W : S64x64.Idx → EReal)
    (hW : iblk m c 2 t = ((cfg0.win 2).blk t).view.read (Elt Ideal) (transpose S64x64 [1, 0] W transposes_S64x64_S64x64_1_0))
    (k o : Fin 64) :
    (iblk m c 2 t : Vec Ideal S64x64 .f32) (ix2 k o) = W (ix2 o k) := by
  obtain ⟨-, -, -, -, e0, e1, -⟩ := block_index t
  rw [hW, View.read_apply]
  refine (congrArg (transpose S64x64 [1, 0] W transposes_S64x64_S64x64_1_0) (funext fun a => Fin.ext ?_)).trans (transposed_at W k o)
  match a with
  | ⟨0, _⟩ => show win0_2.index t (0 : Fin 2) * 64 + 1 * k.val = k.val; omega
  | ⟨1, _⟩ => show win0_2.index t (1 : Fin 2) * 64 + 1 * o.val = o.val; omega

/-- The same for window 3. -/
theorem v_block (c : Dev nD) (t : Fin cfg0.N) (W : S64x64.Idx → EReal)
    (hW : iblk m c 3 t = ((cfg0.win 3).blk t).view.read (Elt Ideal) (transpose S64x64 [1, 0] W transposes_S64x64_S64x64_1_0))
    (k o : Fin 64) :
    (iblk m c 3 t : Vec Ideal S64x64 .f32) (ix2 k o) = W (ix2 o k) := by
  obtain ⟨-, -, -, -, -, -, e0, e1, -⟩ := block_index t
  rw [hW, View.read_apply]
  refine (congrArg (transpose S64x64 [1, 0] W transposes_S64x64_S64x64_1_0) (funext fun a => Fin.ext ?_)).trans (transposed_at W k o)
  match a with
  | ⟨0, _⟩ => show win0_3.index t (0 : Fin 2) * 64 + 1 * k.val = k.val; omega
  | ⟨1, _⟩ => show win0_3.index t (1 : Fin 2) * 64 + 1 * o.val = o.val; omega

end Cert.KernelIdeal.Rows

end
-- ==== Proof.Tiles.lean ====
/-
  From the blocks the launch writes back to the whole output array.

  At point `t` the body's output block is written back to rows `5000·t … 5000·t + 4999` of the output. Its loads
  are those rows of the node features and of the aggregated features and the two transposed weights, so what is
  written back is the layer's output on those rows. The ten row ranges tile the 50000 rows — node `n` lies in
  block `n / 5000` — so the array ends holding the layer's output everywhere.
-/
import proofs.«133716_j4303557230928_2_alg».proof.Proof.Gen.KernelIdeal.Value
import proofs.«133716_j4303557230928_2_alg».proof.Proof.BlockLayer
import proofs.«133716_j4303557230928_2_alg».proof.Proof.Rows

noncomputable section

namespace Cert.KernelIdeal.Tiles

open Cert.KernelIdeal Cert.KernelIdeal.Gen Idealize.ShloMosaic Idealize.ShloMosaic.TcCoe Idealize.SL.Sem
open Idealize.ShloMosaic.Pipeline (Dat)
open Idealize.ShloMosaic.ValueIdx Cert.GcnLayer Cert.KernelIdeal.Head Cert.KernelIdeal.Rows Cert.KernelIdeal.BlockLayer

variable (m : (ℓ : Loc nD τ sig) → Buf (Elt Ideal) ℓ) (ρ : Dev nD → PrngReg)

/-- The layer's output of the program's arguments on device `c`. -/
abbrev out (c : Dev nD) : S50000x64.Idx → EReal :=
  layer (m ((c : Thread nD τ).loc main_arg0))
    (agg (m ((c : Thread nD τ).loc main_arg0)) (m ((c : Thread nD τ).loc main_arg1)) (m ((c : Thread nD τ).loc main_arg2)))
    (m ((c : Thread nD τ).loc main_arg3)) (m ((c : Thread nD τ).loc main_arg4))

theorem origin : (![0, 0] : Fin 2 → Nat) = fun _ => 0 := funext fun a => by fin_cases a <;> rfl

/-- What point `t` writes back is the layer's output read through the point's block. -/
theorem written_back (c : Dev nD) (t : Fin cfg0.N) :
    (dats m 0 c).flushed 4 t = ((cfg0.win 4).blk t).view.read (Elt Ideal) (out m c) := by
  rw [Value.flushed4]
  unfold out0_4
  rw [View.canon_unit_zero origin]
  simp only [View.ld_unit_zero (S := S5000x64) origin, View.ld_unit_zero (S := S64x64) origin]
  obtain ⟨-, -, -, -, -, -, -, -, e0, e1⟩ := block_index t
  funext j
  rw [View.read_apply]
  show k0_pay1 (F := Ideal) (iblk m c 0 t) (iblk m c 1 t) (iblk m c 2 t) (iblk m c 3 t) j = out m c (((cfg0.win 4).blk t).view.emb j)
  refine block_is_layer _ _ _ _ (iblk m c 0 t) (iblk m c 1 t) (iblk m c 2 t) (iblk m c 3 t) (5000 * t.val)
    (fun p k n hn => x_rows m c t _ (block_of m c 0 t _ (array0 m c)) p k n hn)
    (fun p k n hn => agg_rows m c t _ (block_of m c 1 t _ (array1 m c)) p k n hn)
    (fun k o => u_block m c t _ (block_of m c 2 t _ (array2 m c)) k o)
    (fun k o => v_block m c t _ (block_of m c 3 t _ (array3 m c)) k o) j _ ?_ ?_
  · show win0_4.index t (0 : Fin 2) * 5000 + 1 * (j 0).val = 5000 * t.val + (j 0).val; omega
  · show win0_4.index t (1 : Fin 2) * 64 + 1 * (j 1).val = (j 1).val; omega

/-- An index of the output array is in point `t`'s block iff each coordinate is in the block's range. -/
theorem in_block (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v0).slice (win0_4.rect t)).set ↔ _
  rw [View.set_slice_whole, Rect.mem_set_unit]
  exact Iff.rfl

/-- Every node's row is in some point's block: node `n` in block `n / 5000`. -/
theorem tiled (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, -, -, e0, e1⟩ := block_index t
  have ht : t.val = (i 0).val / 5000 := rfl
  refine ⟨t, flush0_4 t, ?_⟩
  rw [in_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The output array after the run is the layer's output of the arguments. -/
theorem whole (c : Dev nD) : (dats m 0 c).arrAt 4 cfg0.N = out m c :=
  (dats m 0 c).arrAt_eq_of_cover 4 (out m c) (fun t _ => written_back m c t) tiled

/-- The kernel program's run: it ends with the result array at the layer's output and the arguments unchanged. -/
theorem run : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (whole m c), (h c).2⟩) (Value.run_blocks m ρ)

end Cert.KernelIdeal.Tiles

end
-- ==== Proof.lean ====
/-
  A graph-convolution layer computed two ways gives one result on the extended reals.

  Both programs first form the aggregated features `agg` (negative source indices wrapped once, the rows of `x`
  they name gathered, those rows added into a zero array at the destination rows) by the same sequence of host
  stages, and then compute, for node `n` and output feature `o`,

      max( Σ_k x[n, k] · U[o, k]  +  Σ_k agg[n, k] · V[o, k] ,  0 ).

  The kernel program transposes the two weight matrices, and a launch over ten blocks of 5000 nodes multiplies each
  block of `x` and of `agg` by the transposed weights, adds the two products and takes the positive part; the
  reference contracts `x` with `U` and `agg` with `V` along the second axis of both operands, for all nodes
  at once, adds and takes the positive part. A transposed matrix at `(k, o)` is the matrix at `(o, k)`, a
  product into a zero accumulator is the bare sum, and the ten blocks tile the nodes, so both programs end at the
  function `Cert.GcnLayer.layer` of the same arrays. No term of any sum is changed, so nothing is asked of the
  entries: the precondition is not used by the value part.

  The modules: `Layer` (the function), `RefLayer` (the reference's last stage is it), `Body` (what the kernel's
  body stores at an index), `Head` (what the launch finds in the arrays the host stages prepare), `BlockLayer` (one block's
  formula is the layer on its rows), `Rows` (each window's block as rows of its array), `Tiles` (from the blocks
  written back to the whole array, and the kernel program's run). Here: the aggregation is one term
  in both programs, and the five claims. The kernel's idealization rewrote no operation, so that claim is empty.
-/
import proofs.«133716_j4303557230928_2_alg».proof.Defs
import proofs.«133716_j4303557230928_2_alg».proof.Proof.Gen.Kernel
import proofs.«133716_j4303557230928_2_alg».proof.Proof.Gen.Kernel.Skeleton
import proofs.«133716_j4303557230928_2_alg».proof.Proof.Gen.Kernel.Launch
import proofs.«133716_j4303557230928_2_alg».proof.Proof.Gen.Kernel.Points
import proofs.«133716_j4303557230928_2_alg».proof.Proof.Gen.Kernel.Frame
import proofs.«133716_j4303557230928_2_alg».proof.Proof.Gen.KernelIdeal
import proofs.«133716_j4303557230928_2_alg».proof.Proof.Gen.KernelIdeal.Skeleton
import proofs.«133716_j4303557230928_2_alg».proof.Proof.Gen.KernelIdeal.Launch
import proofs.«133716_j4303557230928_2_alg».proof.Proof.Gen.KernelIdeal.Points
import proofs.«133716_j4303557230928_2_alg».proof.Proof.Gen.KernelIdeal.Frame
import proofs.«133716_j4303557230928_2_alg».proof.Proof.Gen.KernelIdeal.Value
import proofs.«133716_j4303557230928_2_alg».proof.Proof.Gen.ReferenceIdeal
import proofs.«133716_j4303557230928_2_alg».proof.Proof.Gen.ReferenceIdeal.Run
import proofs.«133716_j4303557230928_2_alg».proof.Proof.Gen.ReferenceIdeal.Read
import proofs.«133716_j4303557230928_2_alg».proof.Proof.Gen.Pre_finite_inputs
import proofs.«133716_j4303557230928_2_alg».proof.Proof.Layer
import proofs.«133716_j4303557230928_2_alg».proof.Proof.RefLayer
import proofs.«133716_j4303557230928_2_alg».proof.Proof.Body
import proofs.«133716_j4303557230928_2_alg».proof.Proof.Head
import proofs.«133716_j4303557230928_2_alg».proof.Proof.BlockLayer
import proofs.«133716_j4303557230928_2_alg».proof.Proof.Rows
import proofs.«133716_j4303557230928_2_alg».proof.Proof.Tiles
import Idealize.ShloMosaic.Adequacy
import Idealize.ShloMosaic.Init

noncomputable section

namespace Cert.Proof

open Idealize.ShloMosaic Idealize.SL.Sem

/-- The reference's scatter-add stage leaves the kernel program's aggregated features: the same stages of the
    same arguments, in the same order. -/
theorem same_agg (x : (⟨Cert.KernelIdeal.S50000x64, .f32⟩ : BufTy).Contents (Elt Ideal))
    (src dst : (⟨Cert.KernelIdeal.S1000000, .i32⟩ : BufTy).Contents (Elt Ideal)) :
    Cert.ReferenceIdeal.Read.val_main_v9 (F := Ideal) x src dst = Cert.KernelIdeal.Head.agg x src dst := by
  rw [Cert.KernelIdeal.Head.agg_eq]
  rfl

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel's reading on the extended reals rewrote no operation. -/
theorem preserves : Cert.preserves_Kernel_KernelIdeal := trivial

/-- From memories that agree on the arguments both programs end with the layer's output of those arguments. -/
theorem algebraic : Cert.algebraic_KernelIdeal_ReferenceIdeal := by
  intro m ρ m' ρ' _ hagree
  refine ⟨fun c => Cert.KernelIdeal.Tiles.out m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v13_eq, Cert.ReferenceIdeal.RefLayer.result_is_layer, same_agg, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
